-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 83
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call2_cst : Ref sig .tc := ⟨.hbm, 88, rfl⟩
abbrev main_call2_v0 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Graph.lean ====
/-
  The graph side of the two layers, which the kernel's program and the reference compute with the same host operations.
  From the edge list: the source and destination of every message (the 800000 edges, then one self loop per node); an
  index read the way the host reads it (a negative one counted from the end); the in-degree of every node as a
  scatter-add of ones, its inverse square root where it is positive and zero elsewhere, and the weight of a message, the
  product of that quantity at its two ends.  A layer's aggregate gathers the rows of a node array at the sources, scales
  each by its message's weight and scatter-adds them at the destinations; a layer then adds its bias row to every row
  and cuts off below at zero.  The specification is two such layers around two matrix products, and the reference's
  composed term is the specification of its arguments, literally.
-/
import proofs.«144610_j6201932775427_1_alg».proof.Proof.RefRun

noncomputable section

namespace Cert.Graph

open Cert.ReferenceIdeal Cert.ReferenceIdeal.Gen Idealize.ShloMosaic Idealize.ShloMosaic.TcCoe Idealize.SL.Sem

variable {F : FTy → Type} [FloatOps F]

/-- The sources of the messages: row 0 of the edge list, then every node once. -/
def src (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destinations of the messages: row 1 of the edge list, then every node once. -/
def dst (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index vector as a column of start indices, a negative index counted from the end of the 50000 nodes. -/
def wrapped (ix : IVec S850000 32) : IVec S850000x1 32 :=
  broadcastInDim S850000x1 ![0] bcast_S850000_S850000x1_0 (select (cmpi .slt ix (broadcastInDim S850000 ![] bcast_S_S850000 (constantI S_ 32 0#32))) (addi ix (broadcastInDim S850000 ![] bcast_S_S850000 (constantI S_ 32 50000#32))) ix)

/-- The in-degree of every node, self loop included: ones scatter-added at the destinations. -/
def degree (e : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- The inverse square root of the in-degree where it is positive, zero elsewhere. -/
def invRoot (e : IVec S2x800000 32) : FVec F S50000 .f32 :=
  select (cmpf (F := F) .ogt (degree e) (broadcastInDim S50000 ![] bcast_S_S50000 (constant S_ .f32 0x00000000#32))) (Host.rsqrt (degree e)) (broadcastInDim S50000 ![] bcast_S_S50000 (constant S_ .f32 0x00000000#32))

/-- The weight of every message: the product of `invRoot` at its source and at its destination. -/
def weight (e : IVec S2x800000 32) : FVec F S850000 .f32 :=
  mulf (Host.gather gather_S50000_S850000x1_S850000_n_0_n_n_0_1_1 (invRoot e) (wrapped (src e))) (Host.gather gather_S50000_S850000x1_S850000_n_0_n_n_0_1_1 (invRoot e) (wrapped (dst e)))

/-- A layer's aggregate, 256 wide: the rows of `H` at the sources, each scaled by its message's weight, added up at the destinations. -/
def aggregate256 (e : IVec S2x800000 32) (H : FVec F S50000x256 .f32) : FVec F S50000x256 .f32 :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 (dst e)) (mulf (Host.gather gather_S50000x256_S850000x1_S850000x256_1_0_n_n_0_1_1256 H (wrapped (src e))) (broadcastInDim S850000x256 ![0, 1] bcast_S850000x1_S850000x256_0_1 (broadcastInDim S850000x1 ![0] bcast_S850000_S850000x1_0 (weight e))))

/-- A layer's aggregate, 128 wide. -/
def aggregate128 (e : IVec S2x800000 32) (H : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 H (wrapped (src e))) (broadcastInDim S850000x128 ![0, 1] bcast_S850000x1_S850000x128_0_1 (broadcastInDim S850000x1 ![0] bcast_S850000_S850000x1_0 (weight e))))

/-- The bias added to every row and the cut-off at zero, 256 wide. -/
def activate256 (X : FVec F S50000x256 .f32) (b : FVec F S256 .f32) : FVec F S50000x256 .f32 :=
  maximumf (addf X (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The bias added to every row and the cut-off at zero, 128 wide. -/
def activate128 (X : FVec F S50000x128 .f32) (b : FVec F S128 .f32) : FVec F S50000x128 .f32 :=
  maximumf (addf X (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The first matrix product on the host. -/
def product1 (A : FVec F S50000x256 .f32) (W : FVec F S256x256 .f32) : FVec F S50000x256 .f32 :=
  Host.dotGeneral dot_S50000x256_S256x256_S50000x256_1_0_0_1_n_n none A W

/-- The second matrix product on the host. -/
def product2 (A : FVec F S50000x256 .f32) (W : FVec F S256x128 .f32) : FVec F S50000x128 .f32 :=
  Host.dotGeneral dot_S50000x256_S256x128_S50000x128_1_0_0_1_n_n none A W

/-- The two layers: what both programs compute, as one function of the six arguments. -/
def spec (x : FVec F S50000x256 .f32) (e : IVec S2x800000 32) (w1 : FVec F S256x256 .f32) (b1 : FVec F S256 .f32)
    (w2 : FVec F S256x128 .f32) (b2 : FVec F S128 .f32) : FVec F S50000x128 .f32 :=
  activate128 (aggregate128 e (product2 (activate256 (aggregate256 e (product1 x w1)) b1) w2)) b2

/-- The reference's composed term is the specification of its six argument arrays. -/
theorem reference_eq (m : (ℓ : Loc nD τ sig) → Buf (Elt F) ℓ) (c : Dev nD) :
    Cert.ReferenceIdeal.ValueP.res_main_v65 m c
      = spec (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.Graph

end
-- ==== Proof.KernelRun.lean ====
/-
  The idealized kernel's run with its result named.  @main is four pipelined regions among stretches of host
  operations; the generated frame module states the buffer contents at every boundary as a fold from the launch memory,
  the last of them `Gen.W9`.  Every weakly fair execution terminates, and in the final state every unscoped buffer holds
  what that last fold says: in particular the result array `main_v61` holds `Gen.W9 … main_v61`, and each argument array
  what it was launched with.
-/
import proofs.«144610_j6201932775427_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    array ends at the last boundary's contents and the six argument arrays end as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Product1.lean ====
/-
  The first matrix product.  Region 0 of the idealized kernel walks the 25 row blocks of the node features
  (2000 rows each, all 256 columns), and at block t stores the product of that block with the whole weight matrix.
  An entry of a product depends on one row of the left factor only, so block t of the product of the WHOLE feature array
  with the weights is the product of block t with the weights: every write-back is its block of one array, the
  50000 x 256 product, and the 25 blocks tile that array.  At the ideal reading the matrix unit's product into a zero
  accumulator and the host's dot_general are the same sum over the 256 contracted positions, the casts to bf16 being the
  identity, so the region leaves the host's product of the arrays it was entered with.
-/
import proofs.«144610_j6201932775427_1_alg».proof.Proof.Gen.KernelIdeal.Frame
import proofs.«144610_j6201932775427_1_alg».proof.Proof.Gen.ReferenceIdeal
import proofs.«144610_j6201932775427_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The host's product of a 50000 x 256 array with a 256 x 256 array. -/
abbrev product (A : S50000x256.Idx → EReal) (B : S256x256.Idx → EReal) : S50000x256.Idx → EReal :=
  Host.dotGeneral (F := Ideal) (φ₁ := .f32) (φ₂ := .f32) Cert.ReferenceIdeal.dot_S50000x256_S256x256_S50000x256_1_0_0_1_n_n none A B

/-- An entry of the host's product is the sum over the contracted position. -/
theorem product_apply (A : S50000x256.Idx → EReal) (B : S256x256.Idx → EReal) (p : Fin 50000) (q : Fin 256) :
    product A B (ix2 p q) = ∑ i : Fin 256, A (ix2 p i) * B (ix2 i q) :=
  Cert.LibDot.dotGeneral_apply Cert.ReferenceIdeal.dot_S50000x256_S256x256_S50000x256_1_0_0_1_n_n rfl rfl
    (fun _ _ => rfl) (fun _ _ => rfl) (fun _ _ => rfl) (fun _ _ => rfl) none .single A B p q

/-- An entry of what the body stores: the same sum over the block's row and the weights' column. -/
theorem stored_apply (x0 : Vec Ideal S2000x256 .f32) (x1 : Vec Ideal S256x256 .f32) (p : Fin 2000) (q : Fin 256) :
    k0_pay1 x0 x1 (ix2 p q) = ∑ i : Fin 256, x0 (ix2 p i) * x1 (ix2 i q) := by
  unfold k0_pay1
  exact Cert.LibDot.matmul_zero_apply dot_S2000x256_S256x256_S2000x256_1_0_0_1_n_n rfl rfl
    (fun _ _ => rfl) (fun _ _ => rfl) (fun _ _ => rfl) (fun _ _ => rfl) none _ _ p q

/-- The printed index maps over the grid: block t of the features and of the result starts at row 2000 t and column 0,
    and the weights' one block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 2000 t + p of the array. -/
theorem row_lt (t : Fin cfg0.N) (p : Fin 2000) : t.val * 2000 + p.val < 50000 := by
  have h1 := t.isLt
  have h2 : cfg0.N = 25 := N_0
  have h3 := p.isLt
  omega

/-- The feature block at point t, at (p, i), is the feature array at (2000 t + p, i). -/
theorem lhs_block (c : Dev nD) (t : Fin cfg0.N) (p : Fin 2000) (i : Fin 256) :
    (iblk0 V c 0 t : Vec Ideal S2000x256 .f32) (ix2 p i) = (V c main_arg0 : S50000x256.Idx → EReal) (ix2 ⟨t.val * 2000 + p.val, row_lt t p⟩ i) := by
  obtain ⟨e0, e1, -, -, -, -⟩ := idx_facts t
  unfold iblk0
  rw [View.read_apply]
  show (V c main_arg0 : S50000x256.Idx → EReal) _ = _
  refine congrArg (V c main_arg0 : S50000x256.Idx → EReal) ?_
  funext a
  apply Fin.ext
  match a with
  | ⟨0, _⟩ => show win0_0.index t (0 : Fin 2) * 2000 + 1 * p.val = t.val * 2000 + p.val; omega
  | ⟨1, _⟩ => show win0_0.index t (1 : Fin 2) * 256 + 1 * i.val = i.val; omega

/-- The weights' block at any point is the weight array. -/
theorem rhs_block (c : Dev nD) (t : Fin cfg0.N) (i : Fin 256) (q : Fin 256) :
    (iblk0 V c 1 t : Vec Ideal S256x256 .f32) (ix2 i q) = (V c main_arg2 : S256x256.Idx → EReal) (ix2 i q) := by
  obtain ⟨-, -, e2, e3, -, -⟩ := idx_facts t
  unfold iblk0
  rw [View.read_apply]
  show (V c main_arg2 : S256x256.Idx → EReal) _ = _
  refine congrArg (V c main_arg2 : S256x256.Idx → EReal) ?_
  funext a
  apply Fin.ext
  match a with
  | ⟨0, _⟩ => show win0_1.index t (0 : Fin 2) * 256 + 1 * i.val = i.val; omega
  | ⟨1, _⟩ => show win0_1.index t (1 : Fin 2) * 256 + 1 * q.val = q.val; omega

/-- What point t writes back is block t of the host's product of the arrays the region was entered with. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨-, -, -, -, e4, e5⟩ := idx_facts t
  funext j
  obtain ⟨p, q, rfl⟩ : ∃ (p : Fin 2000) (q : Fin 256), j = ix2 p q := ⟨j 0, j 1, eq_ix2 j⟩
  show k0_pay1 (iblk0 V c 0 t) (iblk0 V c 1 t) (ix2 p q)
    = product (V c main_arg0) (V c main_arg2) (((cfg0.win 2).blk t).view.emb (ix2 p q))
  have hemb : ((cfg0.win 2).blk t).view.emb (ix2 p q) = (ix2 ⟨t.val * 2000 + p.val, row_lt t p⟩ q : S50000x256.Idx) := by
    funext a
    apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  rw [hemb]
  refine (stored_apply _ _ p q).trans ?_
  refine Eq.trans ?_ (product_apply _ _ _ q).symm
  refine Finset.sum_congr rfl fun i _ => ?_
  rw [lhs_block V c t p i, rhs_block V c t i q]

/-- An index of the array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the product array lies in some point's block: row r in the block of point r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region its result array holds the host's product of the feature and weight arrays it was entered with. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Product1

end
-- ==== Proof.Bias1.lean ====
/-
  The first bias and cut-off.  Region 1 of the idealized kernel walks the 25 row blocks of the aggregated
  messages (2000 rows each, all 256 columns); at block t it adds the one-row bias array to every row of the block
  and takes the maximum with zero.  Each entry depends on the same entry of the messages and on the bias at its column,
  so every write-back is its block of one array — entry (r, k) is max (X (r, k) + B (0, k)) 0 — and the 25 blocks tile
  that array.  So the region leaves that array of the two arrays it was entered with.
-/
import proofs.«144610_j6201932775427_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The messages with the bias row added to every row, cut off below at zero. -/
def biased (X : S50000x256.Idx → EReal) (B : S1x256.Idx → EReal) : S50000x256.Idx → EReal :=
  fun i => max (X i + B (ix2 (0 : Fin 1) (⟨(i 1).val, idx2_lt1 i⟩ : Fin 256))) (Ideal.ofBits .f32 0x00000000#32)

theorem biased_apply (X : S50000x256.Idx → EReal) (B : S1x256.Idx → EReal) (p : Fin 50000) (q : Fin 256) :
    biased X B (ix2 p q) = max (X (ix2 p q) + B (ix2 (0 : Fin 1) q)) (Ideal.ofBits .f32 0x00000000#32) := rfl

/-- An entry of what the body stores. -/
theorem stored_apply (x0 : Vec Ideal S2000x256 .f32) (x1 : Vec Ideal S1x256 .f32) (p : Fin 2000) (q : Fin 256) :
    k1_pay1 x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x256 x1 broadcasts_S1x256_S2000x256 (ix2 p q)) _ = _
  rw [broadcastTo_1b_ab_apply]
  rfl

/-- The printed index maps over the grid: block t of the messages and of the result starts at row 2000 t and column 0,
    and the bias' one block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of block t is row 2000 t + p of the array. -/
theorem row_lt (t : Fin cfg1.N) (p : Fin 2000) : t.val * 2000 + p.val < 50000 := by
  have h1 := t.isLt
  have h2 : cfg1.N = 25 := N_1
  have h3 := p.isLt
  omega

/-- The message block at point t, at (p, q), is the message array at (2000 t + p, q). -/
theorem msg_block (c : Dev nD) (t : Fin cfg1.N) (p : Fin 2000) (q : Fin 256) :
    (iblk1 V c 0 t : Vec Ideal S2000x256 .f32) (ix2 p q) = (V c main_v43 : S50000x256.Idx → EReal) (ix2 ⟨t.val * 2000 + p.val, row_lt t p⟩ q) := by
  obtain ⟨e0, e1, -, -, -, -⟩ := idx_facts t
  unfold iblk1
  rw [View.read_apply]
  show (V c main_v43 : S50000x256.Idx → EReal) _ = _
  refine congrArg (V c main_v43 : S50000x256.Idx → EReal) ?_
  funext a
  apply Fin.ext
  match a with
  | ⟨0, _⟩ => show win1_0.index t (0 : Fin 2) * 2000 + 1 * p.val = t.val * 2000 + p.val; omega
  | ⟨1, _⟩ => show win1_0.index t (1 : Fin 2) * 256 + 1 * q.val = q.val; omega

/-- The bias' block at any point is the bias array. -/
theorem bias_block (c : Dev nD) (t : Fin cfg1.N) (q : Fin 256) :
    (iblk1 V c 1 t : Vec Ideal S1x256 .f32) (ix2 (0 : Fin 1) q) = (V c main_v44 : S1x256.Idx → EReal) (ix2 (0 : Fin 1) q) := by
  obtain ⟨-, -, e2, e3, -, -⟩ := idx_facts t
  unfold iblk1
  rw [View.read_apply]
  show (V c main_v44 : S1x256.Idx → EReal) _ = _
  refine congrArg (V c main_v44 : S1x256.Idx → EReal) ?_
  funext a
  apply Fin.ext
  match a with
  | ⟨0, _⟩ => show win1_1.index t (0 : Fin 2) * 1 + 1 * 0 = 0; omega
  | ⟨1, _⟩ => show win1_1.index t (1 : Fin 2) * 256 + 1 * q.val = q.val; omega

/-- What point t writes back is block t of the biased, cut-off array of the arrays the region was entered with. -/
theorem flushed_eq (c : Dev nD) (t : Fin cfg1.N) :
    (dat1 V c).flushed 2 t = ((cfg1.win 2).blk t).view.read (Elt Ideal) (biased (V c main_v43) (V c main_v44)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨-, -, -, -, e4, e5⟩ := idx_facts t
  funext j
  obtain ⟨p, q, rfl⟩ : ∃ (p : Fin 2000) (q : Fin 256), j = ix2 p q := ⟨j 0, j 1, eq_ix2 j⟩
  show k1_pay1 (iblk1 V c 0 t) (iblk1 V c 1 t) (ix2 p q)
    = biased (V c main_v43) (V c main_v44) (((cfg1.win 2).blk t).view.emb (ix2 p q))
  have hemb : ((cfg1.win 2).blk t).view.emb (ix2 p q) = (ix2 ⟨t.val * 2000 + p.val, row_lt t p⟩ q : S50000x256.Idx) := by
    funext a
    apply Fin.ext
    match a with
    | ⟨0, _⟩ => show win1_2.index t (0 : Fin 2) * 2000 + 1 * p.val = t.val * 2000 + p.val; omega
    | ⟨1, _⟩ => show win1_2.index t (1 : Fin 2) * 256 + 1 * q.val = q.val; omega
  rw [hemb, biased_apply]
  refine (stored_apply _ _ p q).trans ?_
  rw [msg_block V c t p q, bias_block V c t q]

/-- An index of the array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every index of the result array lies in some point's block: row r in the block of point r / 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by omega⟩
  obtain ⟨-, -, -, -, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- After the region its result array holds the biased, cut-off array of the two arrays it was entered with. -/
theorem final (c : Dev nD) : (dat1 V c).arrAt 2 cfg1.N = biased (V c main_v43) (V c main_v44) :=
  (dat1 V c).arrAt_eq_of_cover 2 (biased (V c main_v43) (V c main_v44)) (fun t _ => flushed_eq V c t) cover

end Cert.KernelIdeal.Bias1

end
-- ==== Proof.Product2.lean ====
/-
  The second matrix product.  Region 2 of the idealized kernel walks the 25 row blocks of the hidden activations
  (2000 rows each, all 256 columns), and at block t stores the product of that block with the whole 256 x 128 weight
  matrix.  An entry of a product depends on one row of the left factor only, so every write-back is its block of one
  array, the 50000 x 128 product of the whole activation array with the weights, and the 25 blocks tile that array.  At
  the ideal reading the matrix unit's product into a zero accumulator and the host's dot_general are the same sum over
  the 256 contracted positions (the casts to bf16 and the cast of the loaded block to its own shape are the identity),
  so the region leaves the host's product of the arrays it was entered with.
-/
import proofs.«144610_j6201932775427_1_alg».proof.Proof.Gen.KernelIdeal.Frame
import proofs.«144610_j6201932775427_1_alg».proof.Proof.Gen.ReferenceIdeal
import proofs.«144610_j6201932775427_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The host's product of a 50000 x 256 array with a 256 x 128 array. -/
abbrev product (A : S50000x256.Idx → EReal) (B : S256x128.Idx → EReal) : S50000x128.Idx → EReal :=
  Host.dotGeneral (F := Ideal) (φ₁ := .f32) (φ₂ := .f32) Cert.ReferenceIdeal.dot_S50000x256_S256x128_S50000x128_1_0_0_1_n_n none A B

/-- An entry of the host's product is the sum over the contracted position. -/
theorem product_apply (A : S50000x256.Idx → EReal) (B : S256x128.Idx → EReal) (p : Fin 50000) (q : Fin 128) :
    product A B (ix2 p q) = ∑ i : Fin 256, A (ix2 p i) * B (ix2 i q) :=
  Cert.LibDot.dotGeneral_apply Cert.ReferenceIdeal.dot_S50000x256_S256x128_S50000x128_1_0_0_1_n_n rfl rfl
    (fun _ _ => rfl) (fun _ _ => rfl) (fun _ _ => rfl) (fun _ _ => rfl) none .single A B p q

/-- An entry of what the body stores: the same sum over the block's row and the weights' column. -/
theorem stored_apply (x0 : Vec Ideal S2000x256 .f32) (x1 : Vec Ideal S256x128 .f32) (p : Fin 2000) (q : Fin 128) :
    k2_pay1 x0 x1 (ix2 p q) = ∑ i : Fin 256, x0 (ix2 p i) * x1 (ix2 i q) := by
  unfold k2_pay1
  rw [shapeCast_self]
  exact Cert.LibDot.matmul_zero_apply dot_S2000x256_S256x128_S2000x128_1_0_0_1_n_n rfl rfl
    (fun _ _ => rfl) (fun _ _ => rfl) (fun _ _ => rfl) (fun _ _ => rfl) none _ _ p q

/-- The printed index maps over the grid: block t of the activations and of the result starts at row 2000 t and
    column 0, and the weights' one block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of block t is row 2000 t + p of the array. -/
theorem row_lt (t : Fin cfg2.N) (p : Fin 2000) : t.val * 2000 + p.val < 50000 := by
  have h1 := t.isLt
  have h2 : cfg2.N = 25 := N_2
  have h3 := p.isLt
  omega

/-- The activation block at point t, at (p, i), is the activation array at (2000 t + p, i). -/
theorem lhs_block (c : Dev nD) (t : Fin cfg2.N) (p : Fin 2000) (i : Fin 256) :
    (iblk2 V c 0 t : Vec Ideal S2000x256 .f32) (ix2 p i) = (V c main_v45 : S50000x256.Idx → EReal) (ix2 ⟨t.val * 2000 + p.val, row_lt t p⟩ i) := by
  obtain ⟨e0, e1, -, -, -, -⟩ := idx_facts t
  unfold iblk2
  rw [View.read_apply]
  show (V c main_v45 : S50000x256.Idx → EReal) _ = _
  refine congrArg (V c main_v45 : S50000x256.Idx → EReal) ?_
  funext a
  apply Fin.ext
  match a with
  | ⟨0, _⟩ => show win2_0.index t (0 : Fin 2) * 2000 + 1 * p.val = t.val * 2000 + p.val; omega
  | ⟨1, _⟩ => show win2_0.index t (1 : Fin 2) * 256 + 1 * i.val = i.val; omega

/-- The weights' block at any point is the weight array. -/
theorem rhs_block (c : Dev nD) (t : Fin cfg2.N) (i : Fin 256) (q : Fin 128) :
    (iblk2 V c 1 t : Vec Ideal S256x128 .f32) (ix2 i q) = (V c main_arg4 : S256x128.Idx → EReal) (ix2 i q) := by
  obtain ⟨-, -, e2, e3, -, -⟩ := idx_facts t
  unfold iblk2
  rw [View.read_apply]
  show (V c main_arg4 : S256x128.Idx → EReal) _ = _
  refine congrArg (V c main_arg4 : S256x128.Idx → EReal) ?_
  funext a
  apply Fin.ext
  match a with
  | ⟨0, _⟩ => show win2_1.index t (0 : Fin 2) * 256 + 1 * i.val = i.val; omega
  | ⟨1, _⟩ => show win2_1.index t (1 : Fin 2) * 128 + 1 * q.val = q.val; omega

/-- What point t writes back is block t of the host's product of the arrays the region was entered with. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  obtain ⟨-, -, -, -, e4, e5⟩ := idx_facts t
  funext j
  obtain ⟨p, q, rfl⟩ : ∃ (p : Fin 2000) (q : Fin 128), j = ix2 p q := ⟨j 0, j 1, eq_ix2 j⟩
  show k2_pay1 (iblk2 V c 0 t) (iblk2 V c 1 t) (ix2 p q)
    = product (V c main_v45) (V c main_arg4) (((cfg2.win 2).blk t).view.emb (ix2 p q))
  have hemb : ((cfg2.win 2).blk t).view.emb (ix2 p q) = (ix2 ⟨t.val * 2000 + p.val, row_lt t p⟩ q : S50000x128.Idx) := by
    funext a
    apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  rw [hemb]
  refine (stored_apply _ _ p q).trans ?_
  refine Eq.trans ?_ (product_apply _ _ _ q).symm
  refine Finset.sum_congr rfl fun i _ => ?_
  rw [lhs_block V c t p i, rhs_block V c t i q]

/-- An index of the array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every index of the product array lies in some point's block: row r in the block of point r / 2000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by omega⟩
  obtain ⟨-, -, -, -, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region its result array holds the host's product of the activation and weight arrays it was entered with. -/
theorem final (c : Dev nD) : (dat2 V c).arrAt 2 cfg2.N = product (V c main_v45) (V c main_arg4) :=
  (dat2 V c).arrAt_eq_of_cover 2 (product (V c main_v45) (V c main_arg4)) (fun t _ => flushed_eq V c t) cover

end Cert.KernelIdeal.Product2

end
-- ==== Proof.Bias3.lean ====
/-
  The second bias and cut-off.  Region 3 of the idealized kernel walks the 25 row blocks of the aggregated
  messages (2000 rows each, all 128 columns); at block t it adds the one-row bias array to every row of the block
  and takes the maximum with zero.  Each entry depends on the same entry of the messages and on the bias at its column,
  so every write-back is its block of one array — entry (r, k) is max (X (r, k) + B (0, k)) 0 — and the 25 blocks tile
  that array.  So the region leaves that array of the two arrays it was entered with.
-/
import proofs.«144610_j6201932775427_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The messages with the bias row added to every row, cut off below at zero. -/
def biased (X : S50000x128.Idx → EReal) (B : S1x128.Idx → EReal) : S50000x128.Idx → EReal :=
  fun i => max (X i + B (ix2 (0 : Fin 1) (⟨(i 1).val, idx2_lt1 i⟩ : Fin 128))) (Ideal.ofBits .f32 0x00000000#32)

theorem biased_apply (X : S50000x128.Idx → EReal) (B : S1x128.Idx → EReal) (p : Fin 50000) (q : Fin 128) :
    biased X B (ix2 p q) = max (X (ix2 p q) + B (ix2 (0 : Fin 1) q)) (Ideal.ofBits .f32 0x00000000#32) := rfl

/-- An entry of what the body stores. -/
theorem stored_apply (x0 : Vec Ideal S2000x128 .f32) (x1 : Vec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S2000x128 x1 broadcasts_S1x128_S2000x128 (ix2 p q)) _ = _
  rw [broadcastTo_1b_ab_apply]
  rfl

/-- The printed index maps over the grid: block t of the messages and of the result starts at row 2000 t and column 0,
    and the bias' one block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row 2000 t + p of the array. -/
theorem row_lt (t : Fin cfg3.N) (p : Fin 2000) : t.val * 2000 + p.val < 50000 := by
  have h1 := t.isLt
  have h2 : cfg3.N = 25 := N_3
  have h3 := p.isLt
  omega

/-- The message block at point t, at (p, q), is the message array at (2000 t + p, q). -/
theorem msg_block (c : Dev nD) (t : Fin cfg3.N) (p : Fin 2000) (q : Fin 128) :
    (iblk3 V c 0 t : Vec Ideal S2000x128 .f32) (ix2 p q) = (V c main_v59 : S50000x128.Idx → EReal) (ix2 ⟨t.val * 2000 + p.val, row_lt t p⟩ q) := by
  obtain ⟨e0, e1, -, -, -, -⟩ := idx_facts t
  unfold iblk3
  rw [View.read_apply]
  show (V c main_v59 : S50000x128.Idx → EReal) _ = _
  refine congrArg (V c main_v59 : S50000x128.Idx → EReal) ?_
  funext a
  apply Fin.ext
  match a with
  | ⟨0, _⟩ => show win3_0.index t (0 : Fin 2) * 2000 + 1 * p.val = t.val * 2000 + p.val; omega
  | ⟨1, _⟩ => show win3_0.index t (1 : Fin 2) * 128 + 1 * q.val = q.val; omega

/-- The bias' block at any point is the bias array. -/
theorem bias_block (c : Dev nD) (t : Fin cfg3.N) (q : Fin 128) :
    (iblk3 V c 1 t : Vec Ideal S1x128 .f32) (ix2 (0 : Fin 1) q) = (V c main_v60 : S1x128.Idx → EReal) (ix2 (0 : Fin 1) q) := by
  obtain ⟨-, -, e2, e3, -, -⟩ := idx_facts t
  unfold iblk3
  rw [View.read_apply]
  show (V c main_v60 : S1x128.Idx → EReal) _ = _
  refine congrArg (V c main_v60 : S1x128.Idx → EReal) ?_
  funext a
  apply Fin.ext
  match a with
  | ⟨0, _⟩ => show win3_1.index t (0 : Fin 2) * 1 + 1 * 0 = 0; omega
  | ⟨1, _⟩ => show win3_1.index t (1 : Fin 2) * 128 + 1 * q.val = q.val; omega

/-- What point t writes back is block t of the biased, cut-off array of the arrays the region was entered with. -/
theorem flushed_eq (c : Dev nD) (t : Fin cfg3.N) :
    (dat3 V c).flushed 2 t = ((cfg3.win 2).blk t).view.read (Elt Ideal) (biased (V c main_v59) (V c main_v60)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨-, -, -, -, e4, e5⟩ := idx_facts t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q)
    = biased (V c main_v59) (V c main_v60) (((cfg3.win 2).blk t).view.emb (ix2 p q))
  have hemb : ((cfg3.win 2).blk t).view.emb (ix2 p q) = (ix2 ⟨t.val * 2000 + p.val, row_lt t p⟩ q : S50000x128.Idx) := by
    funext a
    apply Fin.ext
    match a with
    | ⟨0, _⟩ => show win3_2.index t (0 : Fin 2) * 2000 + 1 * p.val = t.val * 2000 + p.val; omega
    | ⟨1, _⟩ => show win3_2.index t (1 : Fin 2) * 128 + 1 * q.val = q.val; omega
  rw [hemb, biased_apply]
  refine (stored_apply _ _ p q).trans ?_
  rw [msg_block V c t p q, bias_block V c t q]

/-- An index of the array is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every index of the result array lies in some point's block: row r in the block of point r / 2000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  let t : Fin cfg3.N := ⟨(i 0).val / 2000, by omega⟩
  obtain ⟨-, -, -, -, e4, e5⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region its result array holds the biased, cut-off array of the two arrays it was entered with. -/
theorem final (c : Dev nD) : (dat3 V c).arrAt 2 cfg3.N = biased (V c main_v59) (V c main_v60) :=
  (dat3 V c).arrAt_eq_of_cover 2 (biased (V c main_v59) (V c main_v60)) (fun t _ => flushed_eq V c t) cover

end Cert.KernelIdeal.Bias3

end
-- ==== Proof.Walk.lean ====
/-
  The idealized kernel's result as the specification of its arguments.  The generated frame names the buffer contents at
  every boundary of @main; here each boundary is read: the host stretch before the first region leaves the argument
  arrays as launched and writes the messages' sources, destinations and weights; a region leaves its result array at the
  closed form of the arrays it was entered with and touches nothing else; a later host stretch reads those and writes a
  layer's aggregate and its bias as a row.  Composed, the last boundary holds at the result array the two layers of the
  specification applied to the launch contents of the six arguments.
-/
import proofs.«144610_j6201932775427_1_alg».proof.Proof.Gen.KernelIdeal.Frame
import proofs.«144610_j6201932775427_1_alg».proof.Proof.Product1
import proofs.«144610_j6201932775427_1_alg».proof.Proof.Bias1
import proofs.«144610_j6201932775427_1_alg».proof.Proof.Product2
import proofs.«144610_j6201932775427_1_alg».proof.Proof.Bias3
import proofs.«144610_j6201932775427_1_alg».proof.Proof.Graph
import proofs.«144610_j6201932775427_1_alg».proof.Proof.KernelRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Walk

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The edge list as launched. -/
abbrev edges (c : Dev nD) : IVec S2x800000 32 := m ((c : Thread nD τ).loc main_arg1)

/-! ## The first host stretch in two parts, and the outlined select after it

The first seven operations of the first stretch number the nodes, take the two rows of the edge list and join each to the
node numbers; the other eleven compute the in-degrees, the test "positive" and the inverse square roots from what those
leave; the outlined select then chooses between the inverse root and zero.  Each part is read from an opaque valuation,
so that a part's result is a short term of the previous part's. -/

/-- The first seven operations of the first host stretch. -/
abbrev headOps : List (HloOp τ sig (Elt Ideal)) := (hostOps0 (F := Ideal)).take 7

/-- The other eleven. -/
abbrev tailOps : List (HloOp τ sig (Elt Ideal)) := (hostOps0 (F := Ideal)).drop 7

theorem hostOps0_split : (hostOps0 : List (HloOp τ sig (Elt Ideal))) = headOps ++ tailOps :=
  (List.take_append_drop 7 _).symm

/-- What the first seven host operations leave. -/
def U (c : Dev nD) : Valuation τ sig (Elt Ideal) := StableHlo.after headOps (W0 m ρ c)

/-- What the first host stretch leaves. -/
def X1 (c : Dev nD) : Valuation τ sig (Elt Ideal) := StableHlo.after tailOps (U m ρ c)

/-- What the outlined select leaves. -/
def X2 (c : Dev nD) : Valuation τ sig (Elt Ideal) := StableHlo.after hostOps0_1 (X1 m ρ c)

theorem U_src (c : Dev nD) : U m ρ c (Proc.devRef .tc main_v3) = Cert.Graph.src (edges m c) := by
  unfold U
  simp only [headOps, hostOps0, List.take_succ_cons, List.take_zero]
  after_results_simp
  rfl

theorem U_dst (c : Dev nD) : U m ρ c (Proc.devRef .tc main_v6) = Cert.Graph.dst (edges m c) := by
  unfold U
  simp only [headOps, hostOps0, List.take_succ_cons, List.take_zero]
  after_results_simp
  rfl

/-- The first region's entry contents, from what the outlined select leaves. -/
theorem W3_eq (c : Dev nD) : W3 m ρ c = StableHlo.after hostOps0_2 (X2 m ρ c) := by
  show StableHlo.after hostOps0_2 (StableHlo.after hostOps0_1 (StableHlo.after hostOps0 (W0 m ρ c))) = _
  rw [hostOps0_split, StableHlo.after_append]
  rfl

theorem X1_src (c : Dev nD) : X1 m ρ c (Proc.devRef .tc main_v3) = Cert.Graph.src (edges m c) := by
  unfold X1
  simp only [tailOps, hostOps0, List.drop_succ_cons, List.drop_zero]
  after_results_simp
  exact U_src m ρ c

theorem X1_dst (c : Dev nD) : X1 m ρ c (Proc.devRef .tc main_v6) = Cert.Graph.dst (edges m c) := by
  unfold X1
  simp only [tailOps, hostOps0, List.drop_succ_cons, List.drop_zero]
  after_results_simp
  exact U_dst m ρ c

/-- The test "the in-degree is positive". -/
theorem X1_positive (c : Dev nD) : X1 m ρ c (Proc.devRef .tc main_v12)
    = cmpf (F := Ideal) .ogt (Cert.Graph.degree (F := Ideal) (edges m c))
        (broadcastInDim S50000 ![] bcast_S_S50000 (constant (F := Ideal) S_ .f32 0x00000000#32)) := by
  unfold X1
  simp only [tailOps, hostOps0, List.drop_succ_cons, List.drop_zero]
  after_results_simp
  rw [U_dst]
  rfl

/-- The inverse square roots of the in-degrees. -/
theorem X1_rsqrt (c : Dev nD) : X1 m ρ c (Proc.devRef .tc main_v13) = Host.rsqrt (F := Ideal) (Cert.Graph.degree (F := Ideal) (edges m c)) := by
  unfold X1
  simp only [tailOps, hostOps0, List.drop_succ_cons, List.drop_zero]
  after_results_simp
  rw [U_dst]
  rfl

theorem X1_zero (c : Dev nD) : X1 m ρ c (Proc.devRef .tc main_cst_2) = constant (F := Ideal) S_ .f32 0x00000000#32 := by
  unfold X1
  simp only [tailOps, hostOps0, List.drop_succ_cons, List.drop_zero]
  after_results_simp <;> rfl

/-- The outlined select, from any contents: the second operand where the first is set, the third broadcast elsewhere. -/
theorem select_result (V : Valuation τ sig (Elt Ideal)) :
    StableHlo.after (hostOps0_1 (F := Ideal)) V (Proc.devRef .tc main_v14)
      = select (V (Proc.devRef .tc main_v12) : IVec S50000 1) (V (Proc.devRef .tc main_v13) : FVec Ideal S50000 .f32)
          (broadcastInDim S50000 ![] bcast_S_S50000 (V (Proc.devRef .tc main_cst_2) : FVec Ideal S_ .f32)) := by
  simp only [hostOps0_1]
  after_results_simp
  rfl

theorem X2_invRoot (c : Dev nD) : X2 m ρ c (Proc.devRef .tc main_v14) = Cert.Graph.invRoot (F := Ideal) (edges m c) := by
  unfold X2
  rw [select_result, X1_positive, X1_rsqrt, X1_zero]
  rfl

theorem X2_src (c : Dev nD) : X2 m ρ c (Proc.devRef .tc main_v3) = Cert.Graph.src (edges m c) := by
  unfold X2
  simp only [hostOps0_1]
  after_results_simp
  exact X1_src m ρ c

theorem X2_dst (c : Dev nD) : X2 m ρ c (Proc.devRef .tc main_v6) = Cert.Graph.dst (edges m c) := by
  unfold X2
  simp only [hostOps0_1]
  after_results_simp
  exact X1_dst m ρ c

/-! ## At the first region's entry: the arguments as launched, the messages' sources, destinations and weights written -/

theorem entry_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

theorem entry_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp <;> rfl

theorem entry_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp <;> rfl

theorem entry_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp <;> rfl

theorem entry_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

theorem entry_src (c : Dev nD) : W3 m ρ c (Proc.devRef .tc main_v3) = Cert.Graph.src (edges m c) := by
  show StableHlo.after hostOps0_2 (StableHlo.after hostOps0_1 (StableHlo.after hostOps0 (W0 m ρ c))) (Proc.devRef .tc main_v3) = _
  simp only [hostOps0, hostOps0_1, hostOps0_2]
  after_results_simp
  rfl

theorem entry_dst (c : Dev nD) : W3 m ρ c (Proc.devRef .tc main_v6) = Cert.Graph.dst (edges m c) := by
  show StableHlo.after hostOps0_2 (StableHlo.after hostOps0_1 (StableHlo.after hostOps0 (W0 m ρ c))) (Proc.devRef .tc main_v6) = _
  simp only [hostOps0, hostOps0_1, hostOps0_2]
  after_results_simp
  rfl

theorem entry_weight (c : Dev nD) : W3 m ρ c (Proc.devRef .tc main_v29) = Cert.Graph.weight (F := Ideal) (edges m c) := by
  rw [W3_eq]
  simp only [hostOps0_2]
  after_results_simp
  rw [X2_invRoot, X2_src, X2_dst]
  rfl

/-! ## After the first region: its result array at the first product, everything else as at its entry -/

theorem out0_src (c : Dev nD) : W4 m ρ c (Proc.devRef .tc main_v3) = Cert.Graph.src (edges m c) :=
  (W4_of_ne m ρ c main_v3 (by decide)).trans (entry_src m ρ c)
theorem out0_dst (c : Dev nD) : W4 m ρ c (Proc.devRef .tc main_v6) = Cert.Graph.dst (edges m c) :=
  (W4_of_ne m ρ c main_v6 (by decide)).trans (entry_dst m ρ c)
theorem out0_weight (c : Dev nD) : W4 m ρ c (Proc.devRef .tc main_v29) = Cert.Graph.weight (F := Ideal) (edges m c) :=
  (W4_of_ne m ρ c main_v29 (by decide)).trans (entry_weight m ρ c)
theorem out0_arg3 (c : Dev nD) : W4 m ρ c (Proc.devRef .tc main_arg3) = m ((c : Thread nD τ).loc main_arg3) :=
  (W4_of_ne m ρ c main_arg3 (by decide)).trans (entry_arg3 m ρ c)
theorem out0_arg4 (c : Dev nD) : W4 m ρ c (Proc.devRef .tc main_arg4) = m ((c : Thread nD τ).loc main_arg4) :=
  (W4_of_ne m ρ c main_arg4 (by decide)).trans (entry_arg4 m ρ c)
theorem out0_arg5 (c : Dev nD) : W4 m ρ c (Proc.devRef .tc main_arg5) = m ((c : Thread nD τ).loc main_arg5) :=
  (W4_of_ne m ρ c main_arg5 (by decide)).trans (entry_arg5 m ρ c)

theorem out0_product (c : Dev nD) : W4 m ρ c (Proc.devRef .tc main_v30)
    = Cert.Graph.product1 (F := Ideal) (m ((c : Thread nD τ).loc main_arg0)) (m ((c : Thread nD τ).loc main_arg2)) := by
  refine (W4_arr m ρ c 2).trans ?_
  refine (Product1.final (V3 m ρ) c).trans ?_
  show Product1.product (W3 m ρ c (Proc.devRef .tc main_arg0)) (W3 m ρ c (Proc.devRef .tc main_arg2)) = _
  rw [entry_arg0, entry_arg2]
  rfl

/-! ## The host stretch between the first and second regions: the first aggregate and the first bias as a row -/

theorem mid_src (c : Dev nD) : W5 m ρ c (Proc.devRef .tc main_v3) = W4 m ρ c (Proc.devRef .tc main_v3) := by
  show StableHlo.after hostOps1 (W4 m ρ c) (Proc.devRef .tc main_v3) = _
  simp only [hostOps1]
  after_results_simp

theorem mid_dst (c : Dev nD) : W5 m ρ c (Proc.devRef .tc main_v6) = W4 m ρ c (Proc.devRef .tc main_v6) := by
  show StableHlo.after hostOps1 (W4 m ρ c) (Proc.devRef .tc main_v6) = _
  simp only [hostOps1]
  after_results_simp

theorem mid_weight (c : Dev nD) : W5 m ρ c (Proc.devRef .tc main_v29) = W4 m ρ c (Proc.devRef .tc main_v29) := by
  show StableHlo.after hostOps1 (W4 m ρ c) (Proc.devRef .tc main_v29) = _
  simp only [hostOps1]
  after_results_simp

theorem mid_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results_simp

theorem mid_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results_simp

theorem mid_aggregate (c : Dev nD) : W5 m ρ c (Proc.devRef .tc main_v43)
    = Cert.Graph.aggregate256 (F := Ideal) (edges m c) (Cert.Graph.product1 (F := Ideal) (m ((c : Thread nD τ).loc main_arg0)) (m ((c : Thread nD τ).loc main_arg2))) := by
  show StableHlo.after hostOps1 (W4 m ρ c) (Proc.devRef .tc main_v43) = _
  simp only [hostOps1]
  after_results_simp
  rw [out0_src, out0_dst, out0_weight, out0_product]
  rfl

theorem mid_bias (c : Dev nD) : W5 m ρ c (Proc.devRef .tc main_v44)
    = shapeCast S1x256 (m ((c : Thread nD τ).loc main_arg3) : S256.Idx → EReal) shapeCasts_S256_S1x256 := by
  show StableHlo.after hostOps1 (W4 m ρ c) (Proc.devRef .tc main_v44) = _
  simp only [hostOps1]
  after_results_simp
  rw [out0_arg3]
  rfl

/-! ## The bias as a row and as a broadcast -/

/-- The bias array given a leading unit axis, read as a row and added to every row, is the bias broadcast along the rows the
    way the host does it: both read the bias at the entry's column; and zero is zero. (256 columns.) -/
theorem biased256_eq (X : S50000x256.Idx → EReal) (b : S256.Idx → EReal) :
    Bias1.biased X (shapeCast S1x256 b shapeCasts_S256_S1x256) = Cert.Graph.activate256 (F := Ideal) X b := by
  funext i
  obtain ⟨p, q, rfl⟩ : ∃ (p : Fin 50000) (q : Fin 256), i = ix2 p q := ⟨i 0, i 1, eq_ix2 i⟩
  rw [Bias1.biased_apply, shapeCast_a_1a_apply]
  have hrow : broadcastInDim Cert.ReferenceIdeal.S50000x256 ![0, 1] Cert.ReferenceIdeal.Gen.bcast_S1x256_S50000x256_0_1
      (broadcastInDim Cert.ReferenceIdeal.S1x256 ![1] Cert.ReferenceIdeal.Gen.bcast_S256_S1x256_1 b) (ix2 p q) = b (ix1 q) := by
    rw [broadcastInDim_apply _ _ _ (ix2 p q) (ix2 (0 : Fin 1) q) (fun a => by
      match a with
      | ⟨0, _⟩ => rfl
      | ⟨1, _⟩ => rfl)]
    exact broadcastInDim_apply _ _ _ _ (ix1 q) (fun a => by
      match a with
      | ⟨0, _⟩ => rfl)
  show _ = max (X (ix2 p q) + broadcastInDim Cert.ReferenceIdeal.S50000x256 ![0, 1] Cert.ReferenceIdeal.Gen.bcast_S1x256_S50000x256_0_1
      (broadcastInDim Cert.ReferenceIdeal.S1x256 ![1] Cert.ReferenceIdeal.Gen.bcast_S256_S1x256_1 b) (ix2 p q)) (Ideal.ofBits .f32 0x00000000#32)
  rw [hrow]

/-- The bias array given a leading unit axis, read as a row and added to every row, is the bias broadcast along the rows the
    way the host does it: both read the bias at the entry's column; and zero is zero. (128 columns.) -/
theorem biased128_eq (X : S50000x128.Idx → EReal) (b : S128.Idx → EReal) :
    Bias3.biased X (shapeCast S1x128 b shapeCasts_S128_S1x128) = Cert.Graph.activate128 (F := Ideal) X b := by
  funext i
  obtain ⟨p, q, rfl⟩ : ∃ (p : Fin 50000) (q : Fin 128), i = ix2 p q := ⟨i 0, i 1, eq_ix2 i⟩
  rw [Bias3.biased_apply, shapeCast_a_1a_apply]
  have hrow : broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) (ix2 p q) = b (ix1 q) := by
    rw [broadcastInDim_apply _ _ _ (ix2 p q) (ix2 (0 : Fin 1) q) (fun a => by
      match a with
      | ⟨0, _⟩ => rfl
      | ⟨1, _⟩ => rfl)]
    exact broadcastInDim_apply _ _ _ _ (ix1 q) (fun a => by
      match a with
      | ⟨0, _⟩ => rfl)
  show _ = max (X (ix2 p q) + broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) (ix2 p q)) (Ideal.ofBits .f32 0x00000000#32)
  rw [hrow]

/-! ## After the second region: the hidden activations -/

theorem out1_activation (c : Dev nD) : W6 m ρ c (Proc.devRef .tc main_v45) = (Cert.Graph.activate256 (F := Ideal) (Cert.Graph.aggregate256 (F := Ideal) (edges m c) (Cert.Graph.product1 (F := Ideal) (m ((c : Thread nD τ).loc main_arg0)) (m ((c : Thread nD τ).loc main_arg2)))) (m ((c : Thread nD τ).loc main_arg3))) := by
  refine (W6_arr m ρ c 2).trans ?_
  refine (Bias1.final (V5 m ρ) c).trans ?_
  show Bias1.biased (W5 m ρ c (Proc.devRef .tc main_v43)) (W5 m ρ c (Proc.devRef .tc main_v44)) = _
  rw [mid_aggregate, mid_bias]
  exact biased256_eq _ _

theorem out1_arg4 (c : Dev nD) : W6 m ρ c (Proc.devRef .tc main_arg4) = m ((c : Thread nD τ).loc main_arg4) :=
  (W6_of_ne m ρ c main_arg4 (by decide)).trans ((mid_arg4 m ρ c).trans (out0_arg4 m ρ c))

/-! ## After the third region: the second product -/

theorem out2_product (c : Dev nD) : W7 m ρ c (Proc.devRef .tc main_v46) = (Cert.Graph.product2 (F := Ideal) (Cert.Graph.activate256 (F := Ideal) (Cert.Graph.aggregate256 (F := Ideal) (edges m c) (Cert.Graph.product1 (F := Ideal) (m ((c : Thread nD τ).loc main_arg0)) (m ((c : Thread nD τ).loc main_arg2)))) (m ((c : Thread nD τ).loc main_arg3))) (m ((c : Thread nD τ).loc main_arg4))) := by
  refine (W7_arr m ρ c 2).trans ?_
  refine (Product2.final (V6 m ρ) c).trans ?_
  show Product2.product (W6 m ρ c (Proc.devRef .tc main_v45)) (W6 m ρ c (Proc.devRef .tc main_arg4)) = _
  rw [out1_activation, out1_arg4]
  rfl

theorem out2_src (c : Dev nD) : W7 m ρ c (Proc.devRef .tc main_v3) = Cert.Graph.src (edges m c) :=
  (W7_of_ne m ρ c main_v3 (by decide)).trans ((W6_of_ne m ρ c main_v3 (by decide)).trans ((mid_src m ρ c).trans (out0_src m ρ c)))

theorem out2_dst (c : Dev nD) : W7 m ρ c (Proc.devRef .tc main_v6) = Cert.Graph.dst (edges m c) :=
  (W7_of_ne m ρ c main_v6 (by decide)).trans ((W6_of_ne m ρ c main_v6 (by decide)).trans ((mid_dst m ρ c).trans (out0_dst m ρ c)))

theorem out2_weight (c : Dev nD) : W7 m ρ c (Proc.devRef .tc main_v29) = Cert.Graph.weight (F := Ideal) (edges m c) :=
  (W7_of_ne m ρ c main_v29 (by decide)).trans ((W6_of_ne m ρ c main_v29 (by decide)).trans ((mid_weight m ρ c).trans (out0_weight m ρ c)))

theorem out2_arg5 (c : Dev nD) : W7 m ρ c (Proc.devRef .tc main_arg5) = m ((c : Thread nD τ).loc main_arg5) :=
  (W7_of_ne m ρ c main_arg5 (by decide)).trans ((W6_of_ne m ρ c main_arg5 (by decide)).trans ((mid_arg5 m ρ c).trans (out0_arg5 m ρ c)))

/-! ## The host stretch before the last region: the second aggregate and the second bias as a row -/

theorem last_aggregate (c : Dev nD) : W8 m ρ c (Proc.devRef .tc main_v59) = Cert.Graph.aggregate128 (F := Ideal) (edges m c) (Cert.Graph.product2 (F := Ideal) (Cert.Graph.activate256 (F := Ideal) (Cert.Graph.aggregate256 (F := Ideal) (edges m c) (Cert.Graph.product1 (F := Ideal) (m ((c : Thread nD τ).loc main_arg0)) (m ((c : Thread nD τ).loc main_arg2)))) (m ((c : Thread nD τ).loc main_arg3))) (m ((c : Thread nD τ).loc main_arg4))) := by
  show StableHlo.after hostOps3 (W7 m ρ c) (Proc.devRef .tc main_v59) = _
  simp only [hostOps3]
  after_results_simp
  rw [out2_src, out2_dst, out2_weight, out2_product]
  rfl

theorem last_bias (c : Dev nD) : W8 m ρ c (Proc.devRef .tc main_v60)
    = shapeCast S1x128 (m ((c : Thread nD τ).loc main_arg5) : S128.Idx → EReal) shapeCasts_S128_S1x128 := by
  show StableHlo.after hostOps3 (W7 m ρ c) (Proc.devRef .tc main_v60) = _
  simp only [hostOps3]
  after_results_simp
  rw [out2_arg5]
  rfl

/-! ## After the last region: the result -/

/-- The last boundary holds, at the result array, the specification of the six arguments' launch contents. -/
theorem result (c : Dev nD) : W9 m ρ c (Proc.devRef .tc main_v61)
    = Cert.Graph.spec (F := Ideal) (m ((c : Thread nD τ).loc main_arg0)) (edges m c) (m ((c : Thread nD τ).loc main_arg2)) (m ((c : Thread nD τ).loc main_arg3)) (m ((c : Thread nD τ).loc main_arg4)) (m ((c : Thread nD τ).loc main_arg5)) := by
  refine (W9_arr m ρ c 2).trans ?_
  refine (Bias3.final (V8 m ρ) c).trans ?_
  show Bias3.biased (W8 m ρ c (Proc.devRef .tc main_v59)) (W8 m ρ c (Proc.devRef .tc main_v60)) = _
  rw [last_aggregate, last_bias]
  exact biased128_eq _ _

/-! ## The run, read -/

/-- Every weakly fair execution of the idealized kernel terminates with the result array at the specification of the six
    arguments' launch contents, and the arguments unchanged. -/
theorem run_spec : θ_run defs (onTc (τ := τ) (main (F := Ideal))) ⟨m, fun _ => 0, ρ⟩ (fun r => ∀ c : Dev nD,
      r.2.mem ((c.tc : Thread nD τ).loc main_v61)
        = Cert.Graph.spec (F := Ideal) (m ((c : Thread nD τ).loc main_arg0)) (edges m c) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Named.run_named m ρ)

end Cert.KernelIdeal.Walk

end
-- ==== Proof.lean ====
/-
  A two-layer graph convolution, kernel against reference, over the extended reals.

  Both programs compute, for node features x, an edge list e, weights W1, W2 and biases b1, b2,
      h = max (A (x W1) + b1) 0,      z = max (A (h W2) + b2) 0,
  where A gathers the rows of a node array at the messages' sources (the edges, then one self loop per node), scales each
  by the product of the inverse square roots of the in-degrees at its two ends, and adds them up at the destinations.
  The reference does all of it with host operations.  The kernel does the two matrix products and the two
  "add the bias row, cut off at zero" steps in four pipelined regions, each over 25 blocks of 2000 rows, and everything
  else with the same host operations as the reference.

  At the ideal reading the casts to bf16 on the way into the matrix unit are the identity and the unit's product into a
  zero accumulator is the same sum over the contracted position as the host's dot_general; an entry of a product depends
  on one row of the left factor only, and the bias step is entry by entry, so each region leaves its result array at one
  whole-array function of the arrays it was entered with (Product1, Bias1, Product2, Bias3).  Reading the buffer
  contents at every boundary of the kernel's @main (Walk) gives its result as the specification (Graph) of its
  arguments; the reference's composed term is the same specification, literally.  No law of arithmetic is used beyond
  that identity of sums, so the precondition is not opened.

  The three frames are the generated runs; the idealization rewrote nothing, so `preserves` is trivial.
-/
import proofs.«144610_j6201932775427_1_alg».proof.Defs
import proofs.«144610_j6201932775427_1_alg».proof.Proof.Gen.Kernel
import proofs.«144610_j6201932775427_1_alg».proof.Proof.Gen.Kernel.Frame
import proofs.«144610_j6201932775427_1_alg».proof.Proof.Gen.KernelIdeal
import proofs.«144610_j6201932775427_1_alg».proof.Proof.Gen.KernelIdeal.Frame
import proofs.«144610_j6201932775427_1_alg».proof.Proof.Gen.ReferenceIdeal
import proofs.«144610_j6201932775427_1_alg».proof.Proof.Gen.Pre_finite_inputs
import proofs.«144610_j6201932775427_1_alg».proof.Proof.RefRun
import proofs.«144610_j6201932775427_1_alg».proof.Proof.Graph
import proofs.«144610_j6201932775427_1_alg».proof.Proof.KernelRun
import proofs.«144610_j6201932775427_1_alg».proof.Proof.Walk
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the specification of their arguments, and the arguments agree. -/
theorem algebraic : Cert.algebraic_KernelIdeal_ReferenceIdeal := by
  intro m ρ m' ρ' _ hagree
  refine ⟨_, Cert.KernelIdeal.Walk.run_spec m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.Graph.reference_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
